-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S128x512 : Shape := ⟨2, ![128, 512]⟩
abbrev S128 : Shape := ⟨1, ![128]⟩
abbrev S16x128 : Shape := ⟨2, ![16, 128]⟩
abbrev S16 : Shape := ⟨1, ![16]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S128x512 .f32) (main_arg3 : FVec F S128 .f32) (main_arg4 : FVec F S16x128 .f32) (main_arg5 : FVec F S16 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S16x128 .f32 := Host.absf main_arg4
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S128x512 : Shape := ⟨2, ![128, 512]⟩
abbrev S128 : Shape := ⟨1, ![128]⟩
abbrev S16x128 : Shape := ⟨2, ![16, 128]⟩
abbrev S16 : Shape := ⟨1, ![16]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S1x16 : Shape := ⟨2, ![1, 16]⟩
abbrev S50000x16 : Shape := ⟨2, ![50000, 16]⟩
abbrev S2000x512 : Shape := ⟨2, ![2000, 512]⟩
abbrev S2000x128 : Shape := ⟨2, ![2000, 128]⟩
abbrev S512x128 : Shape := ⟨2, ![512, 128]⟩
abbrev S5000x128 : Shape := ⟨2, ![5000, 128]⟩
abbrev S5000x16 : Shape := ⟨2, ![5000, 16]⟩
abbrev S128x16 : Shape := ⟨2, ![128, 16]⟩

abbrev nBuf : Space → Nat
  | .hbm => 56
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S128x512, .f32⟩
  | .hbm, ⟨3, _⟩ => ⟨S128, .f32⟩
  | .hbm, ⟨4, _⟩ => ⟨S16x128, .f32⟩
  | .hbm, ⟨5, _⟩ => ⟨S16, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S50000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S800000, .f32⟩
  | .hbm, ⟨37, _⟩ => ⟨S800000x1, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S1x128, .f32⟩
  | .hbm, ⟨54, _⟩ => ⟨S1x16, .f32⟩
  | .hbm, ⟨55, _⟩ => ⟨S50000x16, .f32⟩
  | .local _ .vmem, ⟨0, _⟩ => ⟨S2000x512, .f32⟩
  | .local _ .vmem, ⟨1, _⟩ => ⟨S2000x512, .f32⟩
  | .local _ .vmem, ⟨2, _⟩ => ⟨S128x512, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S16x128, .f32⟩
  | .local _ .vmem, ⟨9, _⟩ => ⟨S1x16, .f32⟩
  | .local _ .vmem, ⟨10, _⟩ => ⟨S5000x16, .f32⟩
  | .local _ .vmem, ⟨11, _⟩ => ⟨S5000x16, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_call0_cst_0 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_c : Ref sig .tc := ⟨.hbm, 18, rfl⟩
abbrev main_call0_v10 : Ref sig .tc := ⟨.hbm, 19, rfl⟩
abbrev main_call0_v11 : Ref sig .tc := ⟨.hbm, 20, rfl⟩
abbrev main_call0_c_1 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_c_2 : Ref sig .tc := ⟨.hbm, 27, rfl⟩
abbrev main_call0_v17 : Ref sig .tc := ⟨.hbm, 28, rfl⟩
abbrev main_call0_v18 : Ref sig .tc := ⟨.hbm, 29, rfl⟩
abbrev main_call0_c_3 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_c_4 : Ref sig .tc := ⟨.hbm, 38, rfl⟩
abbrev main_call0_v26 : Ref sig .tc := ⟨.hbm, 39, rfl⟩
abbrev main_call0_v27 : Ref sig .tc := ⟨.hbm, 40, rfl⟩
abbrev main_call0_c_5 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_call0_cst_6 : Ref sig .tc := ⟨.hbm, 49, rfl⟩
abbrev main_call0_v35 : Ref sig .tc := ⟨.hbm, 50, rfl⟩
abbrev main_call0_v36 : Ref sig .tc := ⟨.hbm, 51, rfl⟩
abbrev main_call0_v37 : Ref sig .tc := ⟨.hbm, 52, rfl⟩
abbrev main_call0_v38 : Ref sig .tc := ⟨.hbm, 53, rfl⟩
abbrev main_call0_v39 : Ref sig .tc := ⟨.hbm, 54, rfl⟩
abbrev main_v0 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S16_S1x16 : S16.ShapeCasts S1x16
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  transposes_S128x512_p1_0_S512x128 : S128x512.Transposes [1, 0] S512x128
  inb_S2000x128_S2000x128_0_0 : ∀ a, (![0, 0] : Fin 2 → Nat) a + S2000x128.size a ≤ S2000x128.size a
  h_S2000x128 : 0 < S2000x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x512_S512x128_S2000x128_1_0_0_1_n_n_wf : DotDims.WF S2000x512 S512x128 S2000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S16x128.size a
  hwx1_2 : ∀ i : grid1.Coords, EltTy.bits .f32 = 32 ∨ (Rect.block (s := S16x128) S16x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S50000x16.size a
  hwx1_4 : ∀ i : grid1.Coords, EltTy.bits .f32 = 32 ∨ (Rect.block (s := S50000x16) S5000x16.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v38) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v39) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S128x512 : Shape := ⟨2, ![128, 512]⟩
abbrev S128 : Shape := ⟨1, ![128]⟩
abbrev S16x128 : Shape := ⟨2, ![16, 128]⟩
abbrev S16 : Shape := ⟨1, ![16]⟩
abbrev S1x800000 : Shape := ⟨2, ![1, 800000]⟩
abbrev S800000 : Shape := ⟨1, ![800000]⟩
abbrev S512x128 : Shape := ⟨2, ![512, 128]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S128x16 : Shape := ⟨2, ![128, 16]⟩
abbrev S50000x16 : Shape := ⟨2, ![50000, 16]⟩
abbrev S1x16 : Shape := ⟨2, ![1, 16]⟩

abbrev nBuf : Space → Nat
  | .hbm => 62
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S128x512, .f32⟩
  | .hbm, ⟨3, _⟩ => ⟨S128, .f32⟩
  | .hbm, ⟨4, _⟩ => ⟨S16x128, .f32⟩
  | .hbm, ⟨5, _⟩ => ⟨S16, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S512x128, .f32⟩
  | .hbm, ⟨11, _⟩ => ⟨S50000x128, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S800000, .f32⟩
  | .hbm, ⟨38, _⟩ => ⟨S800000x1, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S128x16, .f32⟩
  | .hbm, ⟨58, _⟩ => ⟨S50000x16, .f32⟩
  | .hbm, ⟨59, _⟩ => ⟨S1x16, .f32⟩
  | .hbm, ⟨60, _⟩ => ⟨S50000x16, .f32⟩
  | .hbm, ⟨61, _⟩ => ⟨S50000x16, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x512_S512x128_1_0 : S128x512.Transposes [1, 0] S512x128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S16x128_S128x16_1_0 : S16x128.Transposes [1, 0] S128x16
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S50000x512_S512x128_S50000x128_1_0_0_1_n_n_wf : DotDims.WF S50000x512 S512x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x16_S50000x16_1_0_0_1_n_n_wf : DotDims.WF S50000x128 S128x16 S50000x16 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KernelRun.lean ====
/-
  The idealized kernel's run with its result named.

  The program is two pipelined regions among stretches of host operations. Its run passes through five boundaries;
  at the last one every buffer that outlives a region holds the contents `W4`: the second region's arrays at what
  its write-backs leave, everything else as the stretch before it left it. The final state's memory is read against
  that boundary buffer by buffer, so the result buffer ends at `W4` of its reference — the second region's output
  array after its last write-back — and the six arguments end as launched.
-/
import proofs.«119330_j12695923327677_1_alg».proof.Proof.Gen.KernelIdeal.Frame

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second region's output array, so the last boundary holds there what that region's
    write-backs leave. -/
theorem W4_result (c : Dev nD) :
    W4 m ρ c (Proc.devRef .tc main_v0) = (dat1 (V3 m ρ) c).arrAt 4 cfg1.N :=
  W4_arr m ρ c 4

set_option backward.isDefEq.respectTransparency.types false in
/-- Every weakly fair execution of the program terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.Gcn.KernelRun

end
-- ==== Proof.Aggregate.lean ====
/-
  The degree-normalised neighbourhood sum between the two dense layers, as a function of the edge list and the
  hidden features.

  The edge list is a [2, 800000] array of node numbers: row 0 holds each edge's source, row 1 its target. A node's
  degree counts the edges that end at it (one is added at every edge's target, starting from zero), and an edge weighs
  √deg(source) · √deg(target). The aggregate adds, for every edge, the weight times the source's row of hidden
  features into the target's row, starting from zero. A negative node number used to READ a row counts from the end
  (50000 is added to it); the node numbers used to ADD into a row are taken as they are. Both programs compute this
  with the same host operations in the same order, so nothing here is ever evaluated: the definitions only give the
  common term a name, with the hidden features left as a variable.
-/
import proofs.«119330_j12695923327677_1_alg».proof.Proof.Gen.ReferenceIdeal
import Idealize.ShloMosaic.PureOps.Ideal

noncomputable section

namespace Cert.Gcn

open Idealize.ShloMosaic Cert.ReferenceIdeal Cert.ReferenceIdeal.Facts₀

/-- An edge list: two rows of 800000 node numbers. -/
abbrev Edges : Type := (⟨S2x800000, .i32⟩ : BufTy).Contents (Elt Ideal)
/-- One node number per edge. -/
abbrev EdgeNodes : Type := (⟨S800000, .i32⟩ : BufTy).Contents (Elt Ideal)

/-- Every edge's source: row 0 of the edge list. -/
def source (e : Edges) : EdgeNodes :=
  shapeCast _ (extractStridedSlice S1x800000 ![0, 0] e slices_S2x800000_S1x800000_0_0) shapeCasts_S1x800000_S800000

/-- Every edge's target: row 1 of the edge list. -/
def target (e : Edges) : EdgeNodes :=
  shapeCast _ (extractStridedSlice S1x800000 ![1, 0] e slices_S2x800000_S1x800000_1_0) shapeCasts_S1x800000_S800000

/-- A negative node number counts from the end: 50000 is added to it; the others are kept. -/
def fromEnd (i : EdgeNodes) : EdgeNodes :=
  select (cmpi .slt i (broadcastInDim S800000 ![] bcast_S_S800000 (constantI S_ 32 0#32)))
    (addi i (broadcastInDim S800000 ![] bcast_S_S800000 (constantI S_ 32 50000#32))) i

/-- The square root of every node's degree: one added at each edge's target, from zero. -/
def rootDegree (tgt : EdgeNodes) : FVec Ideal S50000 .f32 :=
  Host.sqrt (Host.scatterAdd scatter_S50000_S800000x1_S800000_n_0_0_1
    (broadcastInDim S50000 ![] bcast_S_S50000 (constant S_ .f32 0x00000000#32))
    (broadcastInDim S800000x1 ![0] bcast_S800000_S800000x1_0 tgt)
    (broadcastInDim S800000 ![] bcast_S_S800000 (constant S_ .f32 0x3F800000#32)))

/-- An edge's weight: √deg(source) · √deg(target). -/
def edgeWeight (src tgt : EdgeNodes) : FVec Ideal S800000 .f32 :=
  mulf
    (Host.gather gather_S50000_S800000x1_S800000_n_0_n_n_0_1_1 (rootDegree tgt)
      (broadcastInDim S800000x1 ![0] bcast_S800000_S800000x1_0 (fromEnd src)))
    (Host.gather gather_S50000_S800000x1_S800000_n_0_n_n_0_1_1 (rootDegree tgt)
      (broadcastInDim S800000x1 ![0] bcast_S800000_S800000x1_0 (fromEnd tgt)))

/-- The aggregate of hidden features `h` over edges with sources `src` and targets `tgt`: every edge adds its
    weight times the source's row of `h` into its target's row, from zero. -/
def aggregateOf (src tgt : EdgeNodes) (h : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 tgt)
    (mulf
      (broadcastInDim S800000x128 ![0, 1] bcast_S800000x1_S800000x128_0_1
        (broadcastInDim S800000x1 ![0] bcast_S800000_S800000x1_0 (edgeWeight src tgt)))
      (Host.gather gather_S50000x128_S800000x1_S800000x128_1_0_n_n_0_1_1128 h
        (broadcastInDim S800000x1 ![0] bcast_S800000_S800000x1_0 (fromEnd src))))

/-- The aggregate over an edge list. -/
def aggregate (e : Edges) (h : FVec Ideal S50000x128 .f32) : FVec Ideal S50000x128 .f32 :=
  aggregateOf (source e) (target e) h

end Cert.Gcn

end
-- ==== Proof.Between.lean ====
/-
  What the second region finds when it is entered.

  Between its two regions the program runs two stretches of host operations. The first (four operations, before the
  first region) cuts the edge list into its two rows, the sources and the targets. The second (forty-four operations,
  between the regions) computes the degree-normalised aggregate of the first region's output over those rows, and
  recasts the two bias vectors as rows. Here each buffer the second region reads is written as a function of the
  launch contents and of the first region's output array: the aggregate's buffer holds the aggregate (Aggregate.lean)
  of that array over the edge list, the bias rows hold the bias vectors recast, the second layer's weights are as
  launched. The operations of a stretch are composed by reading each intermediate buffer where it was written; no
  operation is ever evaluated.
-/
import proofs.«119330_j12695923327677_1_alg».proof.Proof.Gen.KernelIdeal.Frame
import proofs.«119330_j12695923327677_1_alg».proof.Proof.Aggregate
import Idealize.ShloMosaic.Lib.StableHlo.Run

set_option maxRecDepth 16384

noncomputable section

namespace Cert.Gcn.Between

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Contents seen at a value's type

A tensor value's buffer has the value's type by a stated equation, and contents are moved between the two types along
it. Both moves are the identity: moving there and back gives the contents back, and each move alone is the contents
themselves (heterogeneously, since the two types are equal but not the same expression). -/

theorem ofBuf_toBuf {T : BufTy} (x : TRef sig T) (v : T.Contents (Elt Ideal)) : x.ofBuf (x.toBuf v) = v := by
  obtain ⟨r, h, _, _⟩ := x
  subst h
  rfl

theorem toBuf_heq {T : BufTy} (x : TRef sig T) (v : T.Contents (Elt Ideal)) : HEq (x.toBuf v) v := by
  obtain ⟨r, h, _, _⟩ := x
  subst h
  rfl

theorem ofBuf_heq {T : BufTy} (x : TRef sig T) (v : x.ref.ty.Contents (Elt Ideal)) : HEq (x.ofBuf v) v := by
  obtain ⟨r, h, _, _⟩ := x
  subst h
  rfl

/-! ## The first stretch: the two rows of the edge list -/

/-- No operation of the first stretch writes the node features. -/
theorem V1_features (c : Dev nD) : V1 m ρ c main_arg0 = m ((c : Thread nD τ).loc main_arg0) := by
  show StableHlo.after hostOps0 (W0 m ρ c) (Proc.devRef .tc main_arg0) = _
  after_results

/-- Nor the first layer's weights. -/
theorem V1_weights (c : Dev nD) : V1 m ρ c main_arg2 = m ((c : Thread nD τ).loc main_arg2) := by
  show StableHlo.after hostOps0 (W0 m ρ c) (Proc.devRef .tc main_arg2) = _
  after_results

/-- The first region leaves the sources' buffer as the first stretch wrote it: row 0 of the edge list. -/
theorem W2_sources (c : Dev nD) :
    W2 m ρ c (Proc.devRef .tc main_call0_v1) = Cert.Gcn.source (m ((c : Thread nD τ).loc main_arg1)) := by
  rw [W2_of_ne m ρ c main_call0_v1 (by decide)]
  show StableHlo.after hostOps0 (W0 m ρ c) (Proc.devRef .tc main_call0_v1) = _
  after_results
  rfl

/-- And the targets' buffer: row 1. -/
theorem W2_targets (c : Dev nD) :
    W2 m ρ c (Proc.devRef .tc main_call0_v3) = Cert.Gcn.target (m ((c : Thread nD τ).loc main_arg1)) := by
  rw [W2_of_ne m ρ c main_call0_v3 (by decide)]
  show StableHlo.after hostOps0 (W0 m ρ c) (Proc.devRef .tc main_call0_v3) = _
  after_results
  rfl

/-- The hidden features' buffer is the first region's output array: after the region it holds what the region's
    write-backs leave. -/
theorem W2_hidden (c : Dev nD) :
    W2 m ρ c (Proc.devRef .tc main_call0_v4) = (dat0 (V1 m ρ) c).arrAt 2 cfg0.N := W2_arr m ρ c 2

/-! ## The second stretch -/

set_option maxHeartbeats 1000000 in
/-- From ANY contents `Wv`, the second stretch leaves in the aggregate's buffer the aggregate of the hidden
    features' buffer over the sources' and targets' buffers: the stretch's operations composed, each intermediate
    buffer read where it was written. -/
theorem stretch_aggregate (Wv : Valuation τ sig (Elt Ideal)) :
    StableHlo.after hostOps1 Wv (Proc.devRef .tc main_call0_v37)
      = (TRef.of main_call0_v37 : TRef sig ⟨S50000x128, .f32⟩).toBuf
          (Cert.Gcn.aggregateOf
            ((TRef.of main_call0_v1 : TRef sig ⟨S800000, .i32⟩).ofBuf (Wv (Proc.devRef .tc main_call0_v1)))
            ((TRef.of main_call0_v3 : TRef sig ⟨S800000, .i32⟩).ofBuf (Wv (Proc.devRef .tc main_call0_v3)))
            ((TRef.of main_call0_v4 : TRef sig ⟨S50000x128, .f32⟩).ofBuf (Wv (Proc.devRef .tc main_call0_v4)))) := by
  after_results_simp
  simp only [ofBuf_toBuf]
  rfl

/-- The second region is entered with the aggregate of the first region's output over the edge list. -/
theorem V3_aggregate (c : Dev nD) :
    V3 m ρ c main_call0_v37
      = Cert.Gcn.aggregate (m ((c : Thread nD τ).loc main_arg1)) ((dat0 (V1 m ρ) c).arrAt 2 cfg0.N) := by
  refine (stretch_aggregate (W2 m ρ c)).trans ((eq_of_heq (toBuf_heq _ _)).trans ?_)
  exact congr (congr (congrArg Cert.Gcn.aggregateOf ((eq_of_heq (ofBuf_heq _ _)).trans (W2_sources m ρ c)))
    ((eq_of_heq (ofBuf_heq _ _)).trans (W2_targets m ρ c))) ((eq_of_heq (ofBuf_heq _ _)).trans (W2_hidden m ρ c))

/-! ## The small operands of the second region -/

/-- The first region and the first stretch leave the hidden bias as launched. -/
theorem W2_bias1 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results

/-- And the output bias. -/
theorem W2_bias2 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results

/-- And the second layer's weights. -/
theorem W2_weights (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results

/-- The second region is entered with the hidden bias as a row: the vector recast to [1, 128]. -/
theorem V3_bias1 (c : Dev nD) :
    V3 m ρ c main_call0_v38 = shapeCast S1x128 (m ((c : Thread nD τ).loc main_arg3)) shapeCasts_S128_S1x128 := by
  show StableHlo.after hostOps1 (W2 m ρ c) (Proc.devRef .tc main_call0_v38) = _
  after_results_simp
  rw [W2_bias1 m ρ c]
  rfl

/-- With the output bias as a row [1, 16]. -/
theorem V3_bias2 (c : Dev nD) :
    V3 m ρ c main_call0_v39 = shapeCast S1x16 (m ((c : Thread nD τ).loc main_arg5)) shapeCasts_S16_S1x16 := by
  show StableHlo.after hostOps1 (W2 m ρ c) (Proc.devRef .tc main_call0_v39) = _
  after_results_simp
  rw [W2_bias2 m ρ c]
  rfl

/-- And with the second layer's weights as launched: no operation of the second stretch writes them. -/
theorem V3_weights (c : Dev nD) : V3 m ρ c main_arg4 = m ((c : Thread nD τ).loc main_arg4) := by
  show StableHlo.after hostOps1 (W2 m ρ c) (Proc.devRef .tc main_arg4) = _
  after_results_simp
  exact W2_weights m ρ c

end Cert.Gcn.Between

end
-- ==== Proof.Layers.lean ====
/-
  The two dense layers of the graph convolution, each as ONE function of whole arrays, entry by entry, over the
  extended reals.

  The first layer sends node features x [50000, 512] through the weights W1 [128, 512]: entry (p, q) of the hidden
  features is the sum over k of x (p, k) · W1 (q, k) — the product with the transpose of W1. The second layer adds
  the hidden bias to the aggregated features a [50000, 128], multiplies by the transpose of W2 [16, 128] and adds
  the output bias: entry (p, q) is the sum over k of (a (p, k) + b1 k) · W2 (q, k), plus b2 q; the two biases are
  taken as rows, [1, 128] and [1, 16]. Sums over a finite index set in a commutative monoid do not depend on the
  order or the grouping of the terms, so any tiling of the rows computes these same entries.
-/
import proofs.«119330_j12695923327677_1_alg».proof.KernelIdeal
import Idealize.ShloMosaic.PureOps.Ideal
import Idealize.ShloMosaic.Lib.ValueIdx

noncomputable section

namespace Cert.Gcn

open Idealize.ShloMosaic Idealize.ShloMosaic.ValueIdx Cert.KernelIdeal

/-- The hidden features: row p of x against row q of W1. -/
def hidden (x : S50000x512.Idx → EReal) (w : S128x512.Idx → EReal) : S50000x128.Idx → EReal :=
  fun j => ∑ k : Fin 512, x (ix2 (j 0) k) * w (ix2 (j 1) k)

/-- The output: row p of the biased aggregate against row q of W2, plus the output bias at q. -/
def output (a : S50000x128.Idx → EReal) (b1 : S1x128.Idx → EReal) (w : S16x128.Idx → EReal)
    (b2 : S1x16.Idx → EReal) : S50000x16.Idx → EReal :=
  fun j => (∑ k : Fin 128, (a (ix2 (j 0) k) + b1 (ix2 (0 : Fin 1) k)) * w (ix2 (j 1) k)) + b2 (ix2 (0 : Fin 1) (j 1))

theorem hidden_apply (x : S50000x512.Idx → EReal) (w : S128x512.Idx → EReal) (p : Fin 50000) (q : Fin 128) :
    hidden x w (ix2 p q) = ∑ k : Fin 512, x (ix2 p k) * w (ix2 q k) := rfl

theorem output_apply (a : S50000x128.Idx → EReal) (b1 : S1x128.Idx → EReal) (w : S16x128.Idx → EReal)
    (b2 : S1x16.Idx → EReal) (p : Fin 50000) (q : Fin 16) :
    output a b1 w b2 (ix2 p q) = (∑ k : Fin 128, (a (ix2 p k) + b1 (ix2 (0 : Fin 1) k)) * w (ix2 q k)) + b2 (ix2 (0 : Fin 1) q) := rfl

end Cert.Gcn

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibUnitZero.lean ====
/-
  Two readings through a whole buffer's own view, at any value type.

  A memref that is a whole buffer, held at the contents that read as X, loaded through the unit-stride rectangle at
  zero offsets of the buffer's own sizes, reads X; and one store through that rectangle, read back through the view,
  is the stored payload, whatever the buffer held before.
-/
import Idealize.ShloMosaic.Lib.Pipeline.FrameBody
import Idealize.ShloMosaic.Lib.Pipeline.Frame
import Idealize.ShloMosaic.Lib.Pipeline.Value

noncomputable section

namespace Idealize.ShloMosaic

open Idealize.SL Idealize.SL.Sem

/-- The rank-2 zero offsets, spelt as a literal vector, are the constant zero function. -/
theorem zeroOff2 : (![0, 0] : Fin 2 → ℕ) = fun _ => 0 := by funext a; fin_cases a <;> rfl
/-- The rank-3 zero offsets likewise. -/
theorem zeroOff3 : (![0, 0, 0] : Fin 3 → ℕ) = fun _ => 0 := by funext a; fin_cases a <;> rfl

namespace View

variable {Val : EltTy → Type} {S : Shape} {e : EltTy} {sig : RefSig} {κ : Kind} {sp : Space}

/-- One store through the whole-shape rectangle at zero offsets, read back through the view: the payload. -/
theorem read_writes_unit_zero [∀ e, Nonempty (Val e)] (v : View sig κ sp S e) (f : v.ty.Contents Val)
    {off : Fin S.rank → Nat} (h : off = fun _ => 0) (inb : ∀ a, off a + S.size a ≤ S.size a) (w : S.Idx → Val e) :
    v.read Val (v.writes Val f [(⟨Rect.unit off S.size inb, w⟩ : Piece Val S e)]) = w := by
  rw [View.read_writes_eq_canon v f _ (fun y => ⟨_, List.mem_singleton_self _, View.mem_set_unit_zero h inb y⟩),
    View.canon_unit_zero h inb]

end View

namespace Memref.IsWhole

variable {Val : EltTy → Type} {S : Shape} {e : EltTy} {sig : RefSig} {κ : Kind} {sp : Space}

/-- A whole memref held at the contents that read as `X`, loaded through the whole-shape rectangle at zero offsets, reads `X`. -/
theorem readAt_unread_unit_zero {m : Memref sig κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Memref.IsWhole

end Idealize.ShloMosaic

end
-- ==== Proof.Region0.lean ====
import proofs.«119330_j12695923327677_1_alg».proof.Proof.Gen.KernelIdeal.Frame
import proofs.«119330_j12695923327677_1_alg».proof.Proof.Layers
import proofs.«119330_j12695923327677_1_alg».proof.Proof.LibDotRows
import proofs.«119330_j12695923327677_1_alg».proof.Proof.LibUnitZero
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.Gcn.Region0

open Cert.KernelIdeal Cert.KernelIdeal.Gen
open Idealize.ShloMosaic.Pipeline (Dat)

/-- The contraction of a [2000, 512] left operand's columns with a [512, 128] right operand's rows, at the output
    entry (p, q): the sum over k of left (p, k) times right (k, q). -/
theorem dot_entry (l : FVec Ideal S2000x512 .bf16) (r : FVec Ideal S512x128 .bf16) (p : Fin 2000) (q : Fin 128) :
    ∑ c, l (dot_S2000x512_S512x128_S2000x128_1_0_0_1_n_n.lhsIdx (ix2 p q) c)
        * r (dot_S2000x512_S512x128_S2000x128_1_0_0_1_n_n.rhsIdx (ix2 p q) c)
      = ∑ k : Fin 512, l (ix2 p k) * r (ix2 k q) := by
  dot_rows dot_S2000x512_S512x128_S2000x128_1_0_0_1_n_n S2000x512 S512x128 512

/-- What one grid point stores, at entry (p, q) of its block: row p of its block of x against row q of W1. Over the
    extended reals the change of float format is the identity and the accumulator starts at zero, so the matrix
    product with the transposed weights is the plain sum over the 512 input features. -/
theorem payload (x0 : Vec Ideal S2000x512 .f32) (x1 : Vec Ideal S128x512 .f32) (p : Fin 2000) (q : Fin 128) :
    k0_pay1 x0 x1 (ix2 p q) = ∑ k : Fin 512, x0 (ix2 p k) * x1 (ix2 q k) := by
  unfold k0_pay1
  refine (Ideal.matmul_constant_zero_apply dot_S2000x512_S512x128_S2000x128_1_0_0_1_n_n none _ _ (ix2 p q)).trans ?_
  refine (dot_entry _ _ p q).trans ?_
  refine Finset.sum_congr rfl fun k _ => ?_
  refine congrArg (fun z => x0 (ix2 p k) * z) ?_
  exact transpose_apply [1, 0] _ transposes_S128x512_p1_0_S512x128 (ix2 k q) (ix2 q k) (fun b => match b with
    | ⟨0, _⟩ => rfl
    | ⟨1, _⟩ => rfl)

/-! ## The blocks of region 0

The grid has 25 points; point t reads rows 2000·t … 2000·t + 1999 of x (all 512 columns), all of W1, and writes rows
2000·t … 2000·t + 1999 of the hidden features (all 128 columns). -/

/-- The printed index maps, decided once over the 25 grid points: the blocks of x and of the result sit at block row t,
    block column 0; the one block of W1 is the whole array. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks
variable (V : (c : Dev nD) → (b : Ref sig .tc) → Buf (Elt Ideal) ((c : Thread nD τ).loc b)) (c : Dev nD)

/-- Entry (p, k) of point t's block of x is entry (2000·t + p, k) of x. -/
theorem x_block (t : Fin cfg0.N) (p : Fin 2000) (k : Fin 512) (i : S50000x512.Idx)
    (hi0 : (i 0).val = 2000 * t.val + p.val) (hi1 : (i 1).val = k.val) :
    (iblk0 (F := Ideal) V c 0 t : Vec Ideal S2000x512 .f32) (ix2 p k) = (V c main_arg0 : S50000x512.Idx → EReal) i := by
  obtain ⟨e0, e1, -⟩ := block_indices t
  show V c main_arg0 (((cfg0.win 0).blk t).view.emb (ix2 p k)) = V c main_arg0 i
  refine congrArg (V c main_arg0) (funext fun a => Fin.ext ?_)
  match a with
  | ⟨0, _⟩ => show win0_0.index t (0 : Fin 2) * 2000 + 1 * p.val = (i 0).val; omega
  | ⟨1, _⟩ => show win0_0.index t (1 : Fin 2) * 512 + 1 * k.val = (i 1).val; omega

/-- Point t's block of W1 is W1. -/
theorem w_block (t : Fin cfg0.N) (q : Fin 128) (k : Fin 512) :
    (iblk0 (F := Ideal) V c 1 t : Vec Ideal S128x512 .f32) (ix2 q k) = (V c main_arg2 : S128x512.Idx → EReal) (ix2 q k) := by
  obtain ⟨-, -, e2, e3, -⟩ := block_indices t
  show V c main_arg2 (((cfg0.win 1).blk t).view.emb (ix2 q k)) = V c main_arg2 (ix2 q k)
  refine congrArg (V c main_arg2) (funext fun a => Fin.ext ?_)
  match a with
  | ⟨0, _⟩ => show win0_1.index t (0 : Fin 2) * 128 + 1 * q.val = q.val; omega
  | ⟨1, _⟩ => show win0_1.index t (1 : Fin 2) * 512 + 1 * k.val = k.val; omega

/-- Entry (p, q) of point t's block of the result sits at entry (2000·t + p, q) of the result array. -/
theorem out_block (t : Fin cfg0.N) (p : Fin 2000) (q : Fin 128) (i : S50000x128.Idx)
    (hi0 : (i 0).val = 2000 * t.val + p.val) (hi1 : (i 1).val = q.val) :
    ((cfg0.win 2).blk t).view.emb (ix2 p q) = i := by
  obtain ⟨-, -, -, -, e4, e5⟩ := block_indices t
  refine funext fun a => Fin.ext ?_
  match a with
  | ⟨0, _⟩ => show win0_2.index t (0 : Fin 2) * 2000 + 1 * p.val = (i 0).val; omega
  | ⟨1, _⟩ => show win0_2.index t (1 : Fin 2) * 128 + 1 * q.val = (i 1).val; omega

end Blocks

section Array
variable (V : (c : Dev nD) → (b : Ref sig .tc) → Buf (Elt Ideal) ((c : Thread nD τ).loc b)) (c : Dev nD)

/-- What point t stores at an entry of its block is the hidden layer's entry at that place of the array: the rows of
    x the sum reads are the block's own, and W1 is read whole. -/
theorem stored_entry (t : Fin cfg0.N) (y : S2000x128.Idx) :
    k0_pay1 (iblk0 (F := Ideal) V c 0 t) (iblk0 (F := Ideal) V c 1 t) y
      = Cert.Gcn.hidden (V c main_arg0 : S50000x512.Idx → EReal) (V c main_arg2 : S128x512.Idx → EReal)
          (((cfg0.win 2).blk t).view.emb y) := by
  obtain ⟨p, q, rfl⟩ : ∃ (p : Fin 2000) (q : Fin 128), y = ix2 p q := ⟨y 0, y 1, eq_ix2 y⟩
  have hN : grid0.N = 25 := N_0
  have ht : t.val < 25 := hN ▸ t.isLt
  have hr : 2000 * t.val + p.val < 50000 := by have := p.isLt; omega
  rw [out_block t p q (ix2 ⟨2000 * t.val + p.val, hr⟩ q) rfl rfl, Cert.Gcn.hidden_apply]
  refine (payload (iblk0 (F := Ideal) V c 0 t) (iblk0 (F := Ideal) V c 1 t) p q).trans ?_
  refine Finset.sum_congr rfl fun k _ => ?_
  rw [x_block V c t p k (ix2 ⟨2000 * t.val + p.val, hr⟩ k) rfl rfl, w_block V c t q k]

/-- What point t writes back is block t of the hidden layer of the arrays the region was entered with. -/
theorem flushed_eq (t : Fin cfg0.N) :
    (dat0 (F := Ideal) V c).flushed 2 t
      = ((cfg0.win 2).blk t).view.read (Elt Ideal)
          (Cert.Gcn.hidden (V c main_arg0 : S50000x512.Idx → EReal) (V c main_arg2 : S128x512.Idx → EReal)) := by
  show (cfg0.win 2).cut (grid0.coords t) ((dat0 (F := Ideal) V c).after 2 t) = _
  rw [after0_2]
  unfold out0_2
  rw [View.canon_unit_zero zeroOff2]
  simp only [View.ld_unit_zero (S := S2000x512) zeroOff2, View.ld_unit_zero (S := S128x512) zeroOff2]
  funext j
  exact stored_entry V c t j

/-- A place of the result array is in point t's block iff its row and column are in the block's ranges. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_call0_v4).slice (win0_2.rect t)).set ↔ _
  rw [View.set_slice_whole, Rect.mem_set_unit]
  exact Iff.rfl

/-- Row r of the result is in the block of point r / 2000: the 25 blocks of 2000 rows cover the 50000 rows. -/
theorem covered (i : S50000x128.Idx) :
    ∃ t : Fin cfg0.N, (cfg0.win 2).flush t = true ∧ i ∈ ((cfg0.win 2).blk t).view.set := by
  have hN : grid0.N = 25 := N_0
  have hi0 : (i 0).val < 50000 := (i 0).isLt
  have hi1 : (i 1).val < 128 := (i 1).isLt
  have htl : (i 0).val / 2000 < grid0.N := by rw [hN]; omega
  refine ⟨⟨(i 0).val / 2000, htl⟩, flush0_2 _, ?_⟩
  obtain ⟨-, -, -, -, e4, e5⟩ := block_indices ⟨(i 0).val / 2000, htl⟩
  have e4' : win0_2.index ⟨(i 0).val / 2000, htl⟩ (0 : Fin 2) = (i 0).val / 2000 := e4
  rw [mem_block]
  intro a
  match a with
  | ⟨0, _⟩ =>
    show win0_2.index ⟨(i 0).val / 2000, htl⟩ (0 : Fin 2) * 2000 ≤ (i 0).val
      ∧ (i 0).val < win0_2.index ⟨(i 0).val / 2000, htl⟩ (0 : Fin 2) * 2000 + 2000
    omega
  | ⟨1, _⟩ =>
    show win0_2.index ⟨(i 0).val / 2000, htl⟩ (1 : Fin 2) * 128 ≤ (i 1).val
      ∧ (i 1).val < win0_2.index ⟨(i 0).val / 2000, htl⟩ (1 : Fin 2) * 128 + 128
    omega

end Array

/-- After region 0 the result array holds the hidden layer of x and W1 as the region found them: every grid point
    writes its 2000 rows of it, and the 25 blocks cover the array. -/
theorem array (V : (c : Dev nD) → (b : Ref sig .tc) → Buf (Elt Ideal) ((c : Thread nD τ).loc b)) (c : Dev nD) :
    (dat0 (F := Ideal) V c).arrAt 2 cfg0.N
      = Cert.Gcn.hidden (V c main_arg0 : S50000x512.Idx → EReal) (V c main_arg2 : S128x512.Idx → EReal) :=
  (dat0 (F := Ideal) V c).arrAt_eq_of_cover 2
    (Cert.Gcn.hidden (V c main_arg0 : S50000x512.Idx → EReal) (V c main_arg2 : S128x512.Idx → EReal))
    (fun t _ => flushed_eq V c t) (covered)

end Cert.Gcn.Region0

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.Region1.lean ====
/-
  The second layer's array after the second tiled region.

  The region walks ten grid points. At point t it holds rows 5000·t … 5000·t + 4999 of the aggregated features
  a [50000, 128], the whole hidden bias row b1 [1, 128], the whole weights W2 [16, 128] and the whole output bias row
  b2 [1, 16], and stores into the output's block of 5000 rows the payload whose entry (p, q) is

      (the sum over k of (a (5000·t + p, k) + b1 k) · W2 (q, k)) + b2 q.

  That is entry (5000·t + p, q) of the second layer taken as ONE function of the whole arrays: a row of the product
  depends on that row of the left operand only, so cutting the rows into blocks changes no entry. The proof reads the
  payload at an entry (the casts to the same shape and the changes of float format are identities on the extended
  reals; a row broadcast down the first axis repeats the row; the product into a zero accumulator is the sum over the
  contraction index, re-indexed by k; the transposed weights at (k, q) are the weights at (q, k)), reads each input
  block where the output's block sits (a block's coordinate is block index × block size + the coordinate inside the
  block), and covers the 50000 rows by the ten blocks (row r is in block r / 5000).
-/
import proofs.«119330_j12695923327677_1_alg».proof.Proof.Gen.KernelIdeal.Frame
import proofs.«119330_j12695923327677_1_alg».proof.Proof.Layers
import proofs.«119330_j12695923327677_1_alg».proof.Proof.LibDotRows
import proofs.«119330_j12695923327677_1_alg».proof.Proof.LibRowBroadcast
import proofs.«119330_j12695923327677_1_alg».proof.Proof.LibUnitZero
import Idealize.ShloMosaic.Lib.Pipeline.Value
import Idealize.ShloMosaic.PureOps.Ideal.Laws

noncomputable section
open Idealize.ShloMosaic Idealize.ShloMosaic.TcCoe Idealize.SL.Sem Idealize.ShloMosaic.ValueIdx
namespace Cert.Gcn.Region1
open Cert.KernelIdeal Cert.KernelIdeal.Gen

/-! ## The payload at an entry -/

/-- The contraction of the second layer's product, re-indexed: at the output entry (p, q) the sum over the
    contraction index is the sum over k of the left operand at (p, k) times the right operand at (k, q). -/
theorem dot_entry (l : FVec Ideal S5000x128 .bf16) (r : FVec Ideal S128x16 .bf16) (p : Fin 5000) (q : Fin 16) :
    (∑ c, l (dot_S5000x128_S128x16_S5000x16_1_0_0_1_n_n.lhsIdx (ix2 p q) c) * r (dot_S5000x128_S128x16_S5000x16_1_0_0_1_n_n.rhsIdx (ix2 p q) c))
      = ∑ k : Fin 128, l (ix2 p k) * r (ix2 k q) := by
  dot_rows dot_S5000x128_S128x16_S5000x16_1_0_0_1_n_n S5000x128 S128x16 128

/-- The payload of one block at the entry (p, q), over the extended reals: the biased row p of the first block against
    row q of the weights, plus the output bias at q. The casts to the same shape are identities, the narrowing of the
    float format is the identity on the extended reals, each bias row is repeated down the 5000 rows, the product into
    the zero accumulator is the bare sum, and the transposed weights at (k, q) are the weights at (q, k). -/
theorem payload_apply (x0 : Vec Ideal S5000x128 .f32) (x1 : Vec Ideal S1x128 .f32) (x2 : Vec Ideal S16x128 .f32)
    (x3 : Vec Ideal S1x16 .f32) (p : Fin 5000) (q : Fin 16) :
    k1_pay1 x0 x1 x2 x3 (ix2 p q)
      = (∑ k : Fin 128, (x0 (ix2 p k) + x1 (ix2 (0 : Fin 1) k)) * x2 (ix2 q k)) + x3 (ix2 (0 : Fin 1) q) := by
  unfold k1_pay1
  dsimp only
  rw [shapeCast_self, shapeCast_self, shapeCast_self]
  -- the outer sum: the product's entry plus the broadcast output bias
  refine congrArg₂ (· + ·) ?_ (Cert.RowBroadcast.broadcastTo_1b_ab_apply x3 _ p q)
  refine (Ideal.matmul_constant_zero_apply _ none _ _ (ix2 p q)).trans ?_
  refine (dot_entry _ _ p q).trans ?_
  refine Finset.sum_congr rfl fun k _ => ?_
  refine congrArg₂ (· * ·) ?_ ?_
  · -- the left factor: the block's entry plus the broadcast hidden bias
    exact congrArg (x0 (ix2 p k) + ·) (Cert.RowBroadcast.broadcastTo_1b_ab_apply x1 _ p k)
  · -- the right factor: the transpose swaps the two coordinates
    exact transpose_apply [1, 0] _ _ (ix2 k q) (ix2 q k) (fun b => match b with | ⟨0, _⟩ => rfl | ⟨1, _⟩ => rfl)

/-! ## A block's entry is the layer's entry -/

/-- An entry of a block of the second layer, over variables: when the first block holds rows n·5000 … n·5000 + 4999 of
    the aggregate A and the other three blocks are the whole bias row B1, the whole weights W and the whole bias row
    B2, the payload at (p, q) of the block is the second layer's entry (n·5000 + p, q). -/
theorem block_entry (A : S50000x128.Idx → EReal) (B1 : S1x128.Idx → EReal) (W : S16x128.Idx → EReal) (B2 : S1x16.Idx → EReal)
    (x0 : Vec Ideal S5000x128 .f32) (x1 : Vec Ideal S1x128 .f32) (x2 : Vec Ideal S16x128 .f32) (x3 : Vec Ideal S1x16 .f32) (n : Nat)
    (h0 : ∀ (y : S5000x128.Idx) (i : S50000x128.Idx), (i 0).val = n * 5000 + (y 0).val → (i 1).val = (y 1).val → x0 y = A i)
    (h1 : x1 = B1) (h2 : x2 = W) (h3 : x3 = B2)
    (y : S5000x16.Idx) (i : S50000x16.Idx) (hi0 : (i 0).val = n * 5000 + (y 0).val) (hi1 : (i 1).val = (y 1).val) :
    k1_pay1 x0 x1 x2 x3 y = Cert.Gcn.output A B1 W B2 i := by
  subst h1 h2 h3
  obtain ⟨p, q, rfl⟩ : ∃ (p : Fin 5000) (q : Fin 16), y = ix2 p q := ⟨y 0, y 1, eq_ix2 y⟩
  have hi0' : (i 0).val = n * 5000 + p.val := hi0
  have hi1' : (i 1).val = q.val := hi1
  have hp : n * 5000 + p.val < 50000 := by have := idx2_lt0 i; omega
  obtain rfl : i = ix2 (⟨n * 5000 + p.val, hp⟩ : Fin 50000) q := by
    funext a; apply Fin.ext
    match a with
    | ⟨0, _⟩ => exact hi0'
    | ⟨1, _⟩ => exact hi1'
  rw [payload_apply, Cert.Gcn.output_apply]
  refine congrArg (· + x3 (ix2 (0 : Fin 1) q)) (Finset.sum_congr rfl fun k _ => ?_)
  rw [h0 (ix2 p k) (ix2 (⟨n * 5000 + p.val, hp⟩ : Fin 50000) k) rfl rfl]

/-! ## The windows' blocks on the grid -/

/-- The printed index maps over the ten grid points: the aggregate's and the output's windows sit at block (t, 0),
    the two bias rows' and the weights' windows at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- The aggregate's block at point t is rows 5000·t … 5000·t + 4999 of the aggregate. -/
theorem read_agg (y : S5000x128.Idx) (i : S50000x128.Idx) (h0 : (i 0).val = t.val * 5000 + (y 0).val) (h1 : (i 1).val = (y 1).val) :
    iblk1 V c 0 t y = V c main_call0_v37 i := by
  obtain ⟨e00, e01, -⟩ := idx_facts t
  show V c main_call0_v37 (((cfg1.win 0).blk t).view.emb y) = V c main_call0_v37 i
  refine congrArg (V c main_call0_v37 : S50000x128.Idx → EReal) (funext fun a => Fin.ext ?_)
  match a with
  | ⟨0, _⟩ => show win1_0.index t (0 : Fin 2) * 5000 + 1 * (y 0).val = (i 0).val; rw [e00, h0]; omega
  | ⟨1, _⟩ => show win1_0.index t (1 : Fin 2) * 128 + 1 * (y 1).val = (i 1).val; rw [e01, h1]; omega

/-- The hidden bias row's block at every point is the whole row. -/
theorem read_b1 : iblk1 V c 1 t = V c main_call0_v38 := by
  obtain ⟨-, -, e10, e11, -⟩ := idx_facts t
  funext y
  show V c main_call0_v38 (((cfg1.win 1).blk t).view.emb y) = V c main_call0_v38 y
  refine congrArg (V c main_call0_v38 : S1x128.Idx → EReal) (funext fun a => Fin.ext ?_)
  match a with
  | ⟨0, _⟩ => show win1_1.index t (0 : Fin 2) * 1 + 1 * (y 0).val = (y 0).val; rw [e10]; omega
  | ⟨1, _⟩ => show win1_1.index t (1 : Fin 2) * 128 + 1 * (y 1).val = (y 1).val; rw [e11]; omega

/-- The weights' block at every point is the whole array. -/
theorem read_w : iblk1 V c 2 t = V c main_arg4 := by
  obtain ⟨-, -, -, -, e20, e21, -⟩ := idx_facts t
  funext y
  show V c main_arg4 (((cfg1.win 2).blk t).view.emb y) = V c main_arg4 y
  refine congrArg (V c main_arg4 : S16x128.Idx → EReal) (funext fun a => Fin.ext ?_)
  match a with
  | ⟨0, _⟩ => show win1_2.index t (0 : Fin 2) * 16 + 1 * (y 0).val = (y 0).val; rw [e20]; omega
  | ⟨1, _⟩ => show win1_2.index t (1 : Fin 2) * 128 + 1 * (y 1).val = (y 1).val; rw [e21]; omega

/-- The output bias row's block at every point is the whole row. -/
theorem read_b2 : iblk1 V c 3 t = V c main_call0_v39 := by
  obtain ⟨-, -, -, -, -, -, e30, e31, -⟩ := idx_facts t
  funext y
  show V c main_call0_v39 (((cfg1.win 3).blk t).view.emb y) = V c main_call0_v39 y
  refine congrArg (V c main_call0_v39 : S1x16.Idx → EReal) (funext fun a => Fin.ext ?_)
  match a with
  | ⟨0, _⟩ => show win1_3.index t (0 : Fin 2) * 1 + 1 * (y 0).val = (y 0).val; rw [e30]; omega
  | ⟨1, _⟩ => show win1_3.index t (1 : Fin 2) * 16 + 1 * (y 1).val = (y 1).val; rw [e31]; omega

/-- What point t writes back is block t — rows 5000·t … 5000·t + 4999 — of the second layer of the arrays the region finds. -/
theorem flushed_eq :
    (dat1 (F := Ideal) V c).flushed 4 t
      = ((cfg1.win 4).blk t).view.read (Elt Ideal)
          (Cert.Gcn.output (V c main_call0_v37 : S50000x128.Idx → EReal) (V c main_call0_v38 : S1x128.Idx → EReal)
            (V c main_arg4 : S16x128.Idx → EReal) (V c main_call0_v39 : S1x16.Idx → EReal)) := by
  show (cfg1.win 4).cut (grid1.coords t) ((dat1 V c).after 4 t) = _
  rw [after1_4]
  unfold out1_4
  rw [View.canon_unit_zero zeroOff2]
  simp only [View.ld_unit_zero (S := S5000x128) zeroOff2, View.ld_unit_zero (S := S1x128) zeroOff2,
    View.ld_unit_zero (S := S16x128) zeroOff2, View.ld_unit_zero (S := S1x16) zeroOff2]
  funext j
  obtain ⟨-, -, -, -, -, -, -, -, e40, e41⟩ := idx_facts t
  refine block_entry (V c main_call0_v37) (V c main_call0_v38) (V c main_arg4) (V c main_call0_v39)
    (iblk1 V c 0 t) (iblk1 V c 1 t) (iblk1 V c 2 t) (iblk1 V c 3 t) t.val
    (read_agg V c t) (read_b1 V c t) (read_w V c t) (read_b2 V c t)
    ((cfg1.win 4).xinj (grid1.coords t) j) (((cfg1.win 4).blk t).view.emb j) ?_ ?_
  · show win1_4.index t (0 : Fin 2) * 5000 + 1 * (j 0).val = t.val * 5000 + (j 0).val
    rw [e40]; omega
  · show win1_4.index t (1 : Fin 2) * 16 + 1 * (j 1).val = (j 1).val
    rw [e41]; omega

end Blocks

/-! ## From blocks to the array -/

/-- An index of the output array is in point t's block iff each coordinate is in the block's range on its axis. -/
theorem mem_blk (t : Fin cfg1.N) (i : S50000x16.Idx) :
    i ∈ ((cfg1.win 4).blk t).view.set
      ↔ ∀ a : Fin 2, win1_4.index t a * S5000x16.size a ≤ (i a).val ∧ (i a).val < win1_4.index t a * S5000x16.size a + S5000x16.size a := by
  show i ∈ ((View.whole main_v0).slice (win1_4.rect t)).set ↔ _
  rw [View.set_slice_whole, Rect.mem_set_unit]
  exact Iff.rfl

/-- The ten blocks of 5000 rows cover the 50000 rows: row r is in block r / 5000. -/
theorem cover (i : S50000x16.Idx) :
    ∃ t : Fin cfg1.N, (cfg1.win 4).flush t = true ∧ i ∈ ((cfg1.win 4).blk t).view.set := by
  have hi0 : (i 0).val < 50000 := idx2_lt0 i
  have hi1 : (i 1).val < 16 := idx2_lt1 i
  have ht : (i 0).val / 5000 < cfg1.N := by show _ < grid1.N; rw [N_1]; omega
  obtain ⟨-, -, -, -, -, -, -, -, e40, e41⟩ := idx_facts ⟨(i 0).val / 5000, ht⟩
  have e40' : win1_4.index ⟨(i 0).val / 5000, ht⟩ (0 : Fin 2) = (i 0).val / 5000 := e40
  refine ⟨⟨(i 0).val / 5000, ht⟩, flush1_4 _, ?_⟩
  rw [mem_blk]
  intro a
  match a with
  | ⟨0, _⟩ =>
    show win1_4.index _ (0 : Fin 2) * 5000 ≤ (i 0).val ∧ (i 0).val < win1_4.index _ (0 : Fin 2) * 5000 + 5000
    rw [e40']; omega
  | ⟨1, _⟩ =>
    show win1_4.index _ (1 : Fin 2) * 16 ≤ (i 1).val ∧ (i 1).val < win1_4.index _ (1 : Fin 2) * 16 + 16
    rw [e41]; omega

/-- The second layer's array after region 1: every block is the restriction of one function of the arrays the region
    finds, and the blocks cover the array. -/
theorem array (V : (c : Dev nD) → (b : Ref sig .tc) → Buf (Elt Ideal) ((c : Thread nD τ).loc b)) (c : Dev nD) :
    (dat1 (F := Ideal) V c).arrAt 4 cfg1.N
      = Cert.Gcn.output (V c main_call0_v37 : S50000x128.Idx → EReal) (V c main_call0_v38 : S1x128.Idx → EReal)
          (V c main_arg4 : S16x128.Idx → EReal) (V c main_call0_v39 : S1x16.Idx → EReal) :=
  (dat1 (F := Ideal) V c).arrAt_eq_of_cover 4 _ (fun t _ => flushed_eq V c t) cover

end Cert.Gcn.Region1
end
-- ==== Proof.RefLayers.lean ====
/-
  The reference's two dense layers, read entry by entry, are the two functions of the specification.

  The reference multiplies by the transposed weights with one contraction over the shared axis: entry (p, q) of
  x · W1ᵀ is the sum over k of x (p, k) · W1ᵀ (k, q), and W1ᵀ (k, q) is W1 (q, k). Its biases are vectors made into
  rows and then repeated down the rows of the array, so the bias added at (p, k) is the vector's entry k whatever
  the row p. Over the extended reals a sum over a finite index set does not depend on how the contraction is
  scheduled, so these are exactly the entries the specification names.
-/
import proofs.«119330_j12695923327677_1_alg».proof.Proof.Gen.ReferenceIdeal
import proofs.«119330_j12695923327677_1_alg».proof.Proof.Layers
import proofs.«119330_j12695923327677_1_alg».proof.Proof.LibDotRows
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.Gcn.RefLayers

open Cert.ReferenceIdeal Cert.ReferenceIdeal.Facts₀

/-- The first layer's contraction at the output entry (p, q): the sum over k of left (p, k) times right (k, q). -/
theorem dot_entry1 (l : FVec Ideal S50000x512 .f32) (r : FVec Ideal S512x128 .f32) (p : Fin 50000) (q : Fin 128) :
    ∑ c, l (dot_S50000x512_S512x128_S50000x128_1_0_0_1_n_n.lhsIdx (ix2 p q) c)
        * r (dot_S50000x512_S512x128_S50000x128_1_0_0_1_n_n.rhsIdx (ix2 p q) c)
      = ∑ k : Fin 512, l (ix2 p k) * r (ix2 k q) := by
  dot_rows dot_S50000x512_S512x128_S50000x128_1_0_0_1_n_n S50000x512 S512x128 512

/-- The second layer's contraction at the output entry (p, q): the sum over k of left (p, k) times right (k, q). -/
theorem dot_entry2 (l : FVec Ideal S50000x128 .f32) (r : FVec Ideal S128x16 .f32) (p : Fin 50000) (q : Fin 16) :
    ∑ c, l (dot_S50000x128_S128x16_S50000x16_1_0_0_1_n_n.lhsIdx (ix2 p q) c)
        * r (dot_S50000x128_S128x16_S50000x16_1_0_0_1_n_n.rhsIdx (ix2 p q) c)
      = ∑ k : Fin 128, l (ix2 p k) * r (ix2 k q) := by
  dot_rows dot_S50000x128_S128x16_S50000x16_1_0_0_1_n_n S50000x128 S128x16 128

/-- A vector of length n made into a row [1, n] and repeated down m rows reads, at (p, k), the vector's entry k. -/
theorem bias_rows {α : Type} {m n : ℕ} (b : (⟨1, ![n]⟩ : Shape).Idx → α)
    (h0 : (⟨1, ![n]⟩ : Shape).BroadcastsInDim ⟨2, ![1, n]⟩ (![1] : Fin 1 → Fin 2))
    (h1 : (⟨2, ![1, n]⟩ : Shape).BroadcastsInDim ⟨2, ![m, n]⟩ (![0, 1] : Fin 2 → Fin 2)) (p : Fin m) (k : Fin n) :
    broadcastInDim ⟨2, ![m, n]⟩ ![0, 1] h1 (broadcastInDim ⟨2, ![1, n]⟩ ![1] h0 b) (ix2 p k) = b (ix1 k) := by
  refine (broadcastInDim_apply _ h1 _ (ix2 p k) (ix2 (0 : Fin 1) k) fun a => ?_).trans
    (broadcastInDim_apply _ h0 b (ix2 (0 : Fin 1) k) (ix1 k) fun a => ?_)
  · match a with
    | ⟨0, _⟩ => show 0 = if (1 : ℕ) = 1 then 0 else p.val; rw [if_pos rfl]
    | ⟨1, _⟩ =>
      show k.val = if n = 1 then 0 else k.val
      split
      · have := k.isLt; omega
      · rfl
  · match a with
    | ⟨0, _⟩ =>
      show k.val = if n = 1 then 0 else k.val
      split
      · have := k.isLt; omega
      · rfl

/-- The reference's first layer is the hidden features of the specification. -/
theorem hidden_eq (x : FVec Ideal S50000x512 .f32) (w : FVec Ideal S128x512 .f32) :
    Host.dotGeneral dot_S50000x512_S512x128_S50000x128_1_0_0_1_n_n none x
        (transpose S512x128 [1, 0] w transposes_S128x512_S512x128_1_0)
      = Cert.Gcn.hidden x w := by
  funext j
  obtain ⟨p, q, rfl⟩ : ∃ (p : Fin 50000) (q : Fin 128), j = ix2 p q := ⟨j 0, j 1, eq_ix2 j⟩
  rw [Cert.Gcn.hidden_apply]
  simp only [Host.dotGeneral]
  rw [Ideal.dotGeneral_apply]
  refine (dot_entry1 x _ p q).trans (Finset.sum_congr rfl fun k _ => ?_)
  refine congrArg (fun z => x (ix2 p k) * z) ?_
  exact transpose_apply [1, 0] w transposes_S128x512_S512x128_1_0 (ix2 k q) (ix2 q k) (fun b => match b with
    | ⟨0, _⟩ => rfl
    | ⟨1, _⟩ => rfl)

/-- The reference's second layer is the output of the specification, its two bias vectors read as rows. -/
theorem output_eq (a : FVec Ideal S50000x128 .f32) (b1 : FVec Ideal S128 .f32) (w : FVec Ideal S16x128 .f32) (b2 : FVec Ideal S16 .f32) :
    addf (Host.dotGeneral dot_S50000x128_S128x16_S50000x16_1_0_0_1_n_n none
        (addf a (broadcastInDim S50000x128 ![0, 1] bcast_S1x128_S50000x128_0_1 (broadcastInDim S1x128 ![1] bcast_S128_S1x128_1 b1)))
        (transpose S128x16 [1, 0] w transposes_S16x128_S128x16_1_0))
      (broadcastInDim S50000x16 ![0, 1] bcast_S1x16_S50000x16_0_1 (broadcastInDim S1x16 ![1] bcast_S16_S1x16_1 b2))
      = Cert.Gcn.output a (fun j => b1 (ix1 (j 1))) w (fun j => b2 (ix1 (j 1))) := by
  funext j
  obtain ⟨p, q, rfl⟩ : ∃ (p : Fin 50000) (q : Fin 16), j = ix2 p q := ⟨j 0, j 1, eq_ix2 j⟩
  rw [Cert.Gcn.output_apply, addf_apply]
  refine congrArg₂ (· + ·) ?_ (bias_rows b2 bcast_S16_S1x16_1 bcast_S1x16_S50000x16_0_1 p q)
  simp only [Host.dotGeneral]
  rw [Ideal.dotGeneral_apply]
  refine (dot_entry2 _ _ p q).trans (Finset.sum_congr rfl fun k _ => ?_)
  refine congrArg₂ (· * ·) ?_ ?_
  · rw [addf_apply]
    exact congrArg (fun z => a (ix2 p k) + z) (bias_rows b1 bcast_S128_S1x128_1 bcast_S1x128_S50000x128_0_1 p k)
  · exact transpose_apply [1, 0] w transposes_S16x128_S128x16_1_0 (ix2 k q) (ix2 q k) (fun b => match b with
      | ⟨0, _⟩ => rfl
      | ⟨1, _⟩ => rfl)

end Cert.Gcn.RefLayers

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.Network.lean ====
/-
  Both programs compute one function of the six arguments.

  The network's output is the second dense layer (Layers.lean) of the aggregate (Aggregate.lean), over the edge list,
  of the first dense layer of the node features, with the two bias vectors taken as rows. The idealized kernel's
  result buffer ends at it: the second region's output array is the second layer of what the region found when it was
  entered, which is the aggregate of the first region's output array, which is the first layer of the arguments as
  launched. The idealized reference's result is it too: its composed term is the host's matrix products, bias
  broadcasts and the same aggregate, and each matrix product is the layer's sum entry by entry. A bias vector recast
  to a row [1, n] and the same vector broadcast to a row [1, n] read the same entries.
-/
import proofs.«119330_j12695923327677_1_alg».proof.Proof.Gen.ReferenceIdeal.Run
import proofs.«119330_j12695923327677_1_alg».proof.Proof.KernelRun
import proofs.«119330_j12695923327677_1_alg».proof.Proof.Between
import proofs.«119330_j12695923327677_1_alg».proof.Proof.Region0
import proofs.«119330_j12695923327677_1_alg».proof.Proof.Region1
import proofs.«119330_j12695923327677_1_alg».proof.Proof.RefLayers
import proofs.«119330_j12695923327677_1_alg».proof.Proof.LibRowCast

set_option maxRecDepth 16384

noncomputable section

namespace Cert.Gcn

open Idealize.ShloMosaic Idealize.ShloMosaic.TcCoe Idealize.SL.Sem Idealize.ShloMosaic.ValueIdx

/-- The network's output as one function of the six argument arrays. -/
def network (x : FVec Ideal Cert.KernelIdeal.S50000x512 .f32) (e : Edges) (w1 : FVec Ideal Cert.KernelIdeal.S128x512 .f32)
    (b1 : FVec Ideal Cert.KernelIdeal.S128 .f32) (w2 : FVec Ideal Cert.KernelIdeal.S16x128 .f32)
    (b2 : FVec Ideal Cert.KernelIdeal.S16 .f32) : Cert.KernelIdeal.S50000x16.Idx → EReal :=
  output (aggregate e (hidden x w1)) (fun j => b1 (ix1 (j 1))) w2 (fun j => b2 (ix1 (j 1)))

/-- A vector of n entries recast to a row [1, n] reads, at (u, k), entry k. -/
theorem row_of_vector {n : ℕ} (x : (⟨1, ![n]⟩ : Shape).Idx → EReal) (h : (⟨1, ![n]⟩ : Shape).ShapeCasts ⟨2, ![1, n]⟩) :
    shapeCast ⟨2, ![1, n]⟩ x h = fun j => x (ix1 (j 1)) := by
  funext j
  obtain ⟨u, k, rfl⟩ : ∃ (u : Fin 1) (k : Fin n), j = ix2 u k := ⟨j 0, j 1, eq_ix2 j⟩
  exact Cert.RowCast.shapeCast_row_apply x h u k

section Kernel

open Cert.KernelIdeal Cert.KernelIdeal.Gen

variable (m : (ℓ : Loc nD τ sig) → Buf (Elt Ideal) ℓ) (ρ : Dev nD → PrngReg)

/-- The first region's output array is the first layer of the launch contents. -/
theorem hidden_array (c : Dev nD) :
    (dat0 (V1 m ρ) c).arrAt 2 cfg0.N
      = hidden (m ((c : Thread nD τ).loc main_arg0)) (m ((c : Thread nD τ).loc main_arg2)) :=
  (Region0.array (V1 m ρ) c).trans
    (congr (congrArg hidden (Between.V1_features m ρ c)) (Between.V1_weights m ρ c))

/-- The idealized kernel's result buffer ends at the network's output of the launch contents. -/
theorem kernel_result (c : Dev nD) :
    W4 m ρ c (Proc.devRef .tc main_v0)
      = network (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (KernelRun.W4_result m ρ c).trans ((Region1.array (V3 m ρ) c).trans ?_)
  have ha := (Between.V3_aggregate m ρ c).trans
    (congrArg (aggregate (m ((c : Thread nD τ).loc main_arg1))) (hidden_array m ρ c))
  have hb1 := (Between.V3_bias1 m ρ c).trans (row_of_vector (m ((c : Thread nD τ).loc main_arg3)) _)
  have hb2 := (Between.V3_bias2 m ρ c).trans (row_of_vector (m ((c : Thread nD τ).loc main_arg5)) _)
  exact congr (congr (congr (congrArg output ha) hb1) (Between.V3_weights m ρ c)) hb2

end Kernel

section Reference

open Cert.ReferenceIdeal Cert.ReferenceIdeal.Facts₀ Cert.ReferenceIdeal.Value

/-- The host's two matrix products and bias broadcasts around the aggregate are the network's output: each matrix
    product is its layer's sum entry by entry, and a bias vector broadcast to a row reads the vector's entries. -/
theorem host_network (x : FVec Ideal S50000x512 .f32) (e : Edges) (w1 : FVec Ideal S128x512 .f32)
    (b1 : FVec Ideal S128 .f32) (w2 : FVec Ideal S16x128 .f32) (b2 : FVec Ideal S16 .f32) :
    addf (Host.dotGeneral dot_S50000x128_S128x16_S50000x16_1_0_0_1_n_n none
        (addf (aggregate e (Host.dotGeneral dot_S50000x512_S512x128_S50000x128_1_0_0_1_n_n none x
            (transpose S512x128 [1, 0] w1 transposes_S128x512_S512x128_1_0)))
          (broadcastInDim S50000x128 ![0, 1] bcast_S1x128_S50000x128_0_1 (broadcastInDim S1x128 ![1] bcast_S128_S1x128_1 b1)))
        (transpose S128x16 [1, 0] w2 transposes_S16x128_S128x16_1_0))
      (broadcastInDim S50000x16 ![0, 1] bcast_S1x16_S50000x16_0_1 (broadcastInDim S1x16 ![1] bcast_S16_S1x16_1 b2))
      = network x e w1 b1 w2 b2 :=
  (RefLayers.output_eq _ b1 w2 b2).trans
    (congrArg (fun h => output (aggregate e h) (fun j => b1 (ix1 (j 1))) w2 (fun j => b2 (ix1 (j 1))))
      (RefLayers.hidden_eq x w1))

variable (m : (ℓ : Loc nD τ sig) → Buf (Elt Ideal) ℓ)

/-- The idealized reference's composed term is that expression of its arguments (the aggregate's definitions
    unfolded give the term letter by letter), so its result is the network's output. -/
theorem reference_result (c : Dev nD) :
    res_main_v46 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  host_network _ _ _ _ _ _

end Reference

end Cert.Gcn

end
-- ==== Proof.lean ====
/-
  The certificate of a two-layer graph convolution: a tiled kernel against its plain reference.

  Both programs send node features x [50000, 512] through a dense layer (x · W1ᵀ), aggregate the hidden features
  over a graph of 800000 edges with the weights √deg(source) · √deg(target), add a bias, and apply a second dense
  layer ((agg + b1) · W2ᵀ + b2). The kernel computes the two dense layers in pipelined regions, 2000 and 5000 rows at
  a time, with its matrix products into a zero accumulator; the reference computes each as one matrix product. Over
  the extended reals a change of float format is the identity, and a matrix product's entry is a finite sum whose
  value does not depend on how the rows are tiled, so both programs end at one function of the arguments
  (Network.lean): the kernel's result array block by block (Region0.lean, Region1.lean, joined by Between.lean over
  the run of KernelRun.lean), the reference's composed term by RefLayers.lean. The aggregation between the layers is
  the same sequence of host operations in both programs and is never opened (Aggregate.lean). No law used needs the
  inputs to be finite: the precondition is not opened either. The idealization rewrote nothing, so the kernel's
  idealized reading is its own text.
-/
import proofs.«119330_j12695923327677_1_alg».proof.Defs
import proofs.«119330_j12695923327677_1_alg».proof.Proof.Gen.Kernel
import proofs.«119330_j12695923327677_1_alg».proof.Proof.Gen.Kernel.Skeleton
import proofs.«119330_j12695923327677_1_alg».proof.Proof.Gen.Kernel.Launch
import proofs.«119330_j12695923327677_1_alg».proof.Proof.Gen.Kernel.Points
import proofs.«119330_j12695923327677_1_alg».proof.Proof.Gen.Kernel.Frame
import proofs.«119330_j12695923327677_1_alg».proof.Proof.Gen.KernelIdeal
import proofs.«119330_j12695923327677_1_alg».proof.Proof.Gen.KernelIdeal.Skeleton
import proofs.«119330_j12695923327677_1_alg».proof.Proof.Gen.KernelIdeal.Launch
import proofs.«119330_j12695923327677_1_alg».proof.Proof.Gen.KernelIdeal.Points
import proofs.«119330_j12695923327677_1_alg».proof.Proof.Gen.KernelIdeal.Frame
import proofs.«119330_j12695923327677_1_alg».proof.Proof.Gen.ReferenceIdeal
import proofs.«119330_j12695923327677_1_alg».proof.Proof.Gen.Pre_finite_inputs
import proofs.«119330_j12695923327677_1_alg».proof.Proof.Gen.ReferenceIdeal.Run
import proofs.«119330_j12695923327677_1_alg».proof.Proof.Network
import Idealize.ShloMosaic.Adequacy
import Idealize.ShloMosaic.Init

noncomputable section

namespace Cert.Proof

open Idealize.ShloMosaic Idealize.SL.Sem

/-- The kernel as printed runs to its end with its arguments unchanged: its generated frame. -/
theorem frame_kernel : Cert.frame_Kernel := fun m ρ _ => Cert.Kernel.Gen.frame m ρ

/-- So does its idealized reading. -/
theorem frame_ideal : Cert.frame_KernelIdeal := fun m ρ _ => Cert.KernelIdeal.Gen.frame m ρ

/-- And the reference: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization applied no rewrite: there is nothing to preserve. -/
theorem preserves : Cert.preserves_Kernel_KernelIdeal := trivial

/-- From memories that agree on the arguments both idealized programs end at the network's output of those
    arguments, entry by entry. -/
theorem algebraic : Cert.algebraic_KernelIdeal_ReferenceIdeal := by
  intro m ρ m' ρ' _ hagree
  refine ⟨fun c => Cert.Gcn.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.kernel_result m ρ c), (h c).2⟩)
      (Cert.Gcn.KernelRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [Cert.Gcn.reference_result m' c, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
